-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  main_v3
-- ==== Kernel.lean ====
abbrev S4096x50257 : Shape := ⟨2, ![4096, 50257]⟩
abbrev S4096 : Shape := ⟨1, ![4096]⟩
abbrev S4096x1 : Shape := ⟨2, ![4096, 1]⟩
abbrev S32x50257 : Shape := ⟨2, ![32, 50257]⟩
abbrev S32x1 : Shape := ⟨2, ![32, 1]⟩
abbrev S32 : Shape := ⟨1, ![32]⟩
abbrev S_ : Shape := ⟨0, ![]⟩
abbrev S4096x2 : Shape := ⟨2, ![4096, 2]⟩

abbrev nBuf : Space → Nat
  | .hbm => 40
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S4096x1, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1, .i32⟩
  | .hbm, ⟨21, _⟩ => ⟨S4096x2, .i32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x50257_S32x50257_0_0 : ∀ a, (![0, 0] : Fin 2 → Nat) a + S32x50257.size a ≤ S32x50257.size a
  h_S32x50257 : 0 < S32x50257.numel
  reduces_S32x50257_S32 : S32x50257.Reduces [1] S32
  shapeCasts_S32_S32x1 : S32.ShapeCasts S32x1
  broadcasts_S32x1_S32x50257 : S32x1.Broadcasts S32x50257
  inb_S32x1_S32x1_0_0 : ∀ a, (![0, 0] : Fin 2 → Nat) a + S32x1.size a ≤ S32x1.size a
  h_S32x1 : 0 < S32x1.numel
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096x1_S4096 : S4096x1.ShapeCasts S4096
  reducesTo_S4096_S_d0 : S4096.ReducesTo [0] S_
  h_S_ : 0 < S_.numel
  gather_S4096x50257_S4096x2_S4096_n_01_n_n_01_1_11_wf : GatherDims.WF S4096x50257 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .f32 = 32 ∨ (Rect.block (s := S4096x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 49
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x50257, .f32⟩
  | .hbm, ⟨9, _⟩ => ⟨S4096x50257, .f32⟩
  | .hbm, ⟨10, _⟩ => ⟨S4096x50257, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x50257, .f32⟩
  | .hbm, ⟨16, _⟩ => ⟨S4096x50257, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1, .i32⟩
  | .hbm, ⟨34, _⟩ => ⟨S4096x2, .i32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  concatenates_S4096x1_S4096x1_S4096x2_d1 : Shape.Concatenates [S4096x1, S4096x1] S4096x2 1
  reducesTo_S4096_S_d0 : S4096.ReducesTo [0] S_
  gather_S4096x50257_S4096x2_S4096_n_01_n_n_01_1_11_wf : GatherDims.WF S4096x50257 S4096x2 S4096 [] [0, 1] [] [0, 1] [] 1 ![1, 1]

variable [Facts₀]

def gather_S4096x50257_S4096x2_S4096_n_01_n_n_01_1_11 : GatherDims S4096x50257 S4096x2 S4096 where
  offsetDims := []
  collapsedSliceDims := [0, 1]
  operandBatchingDims := []
  startIndicesBatchingDims := []
  startIndexMap := [0, 1]
  indexVectorDim := 1
  sliceSizes := ![1, 1]
  wf := gather_S4096x50257_S4096x2_S4096_n_01_n_n_01_1_11_wf

class Facts : Prop extends Facts₀ where

variable [Facts]
-- ==== Proof.RowStats.lean ====
/-
  Row statistics of a matrix over the extended reals.

  For a matrix `x` with `R` rows and `C` columns and a starting value `z`:
    * `rowMax z x r` is the largest of `z` and the entries of row `r`;
    * `rowLse z x r` is the logarithm of the sum over the columns `k` of `exp (x r k - rowMax z x r)`: the row's
      log-sum-exp, shifted by the row's maximum.
  With them the log-softmax of `x` at `(r, k)` is `(x r k - rowMax z x r) - rowLse z x r`.

  Two facts are used later.  Both statistics of row `r` depend on that row's entries only, so two matrices (of possibly
  different heights) whose rows `r` and `r'` agree entry by entry have the same statistics there: this is what lets a
  block of 32 rows be treated as the rows of the whole matrix it was cut from.  And taking the maximum of `z` with
  `rowMax z x r` once more changes nothing, because the fold already started from `z`.
-/
import Idealize.ShloMosaic.PureOps.Ideal.Laws
import Idealize.ShloMosaic.Lib.ValueIdx

noncomputable section

namespace Cert.RowStats

open Idealize.ShloMosaic Idealize.ShloMosaic.ValueIdx

/-- The largest of `z` and the entries of row `r`. -/
def rowMax {R C : ℕ} (z : EReal) (x : (⟨2, ![R, C]⟩ : Shape).Idx → EReal) (r : Fin R) : EReal :=
  (Finset.univ : Finset (Fin C)).fold max z fun k => x (ix2 r k)

/-- The logarithm of the sum, over row `r`, of the exponentials of the entries less the row's maximum. -/
def rowLse {R C : ℕ} (z : EReal) (x : (⟨2, ![R, C]⟩ : Shape).Idx → EReal) (r : Fin R) : EReal :=
  Ideal.log (∑ k : Fin C, Ideal.exp (x (ix2 r k) - rowMax z x r))

/-- The fold starts from `z`, so it is at least `z`: a further maximum with `z` is absorbed. -/
theorem max_rowMax {R C : ℕ} (z : EReal) (x : (⟨2, ![R, C]⟩ : Shape).Idx → EReal) (r : Fin R) :
    max z (rowMax z x r) = rowMax z x r :=
  max_eq_right ((Finset.le_fold_max (c := z)).mpr (Or.inl le_rfl))

/-- The maximum of a row is a function of that row's entries alone. -/
theorem rowMax_congr {R R' C : ℕ} (z : EReal) (x : (⟨2, ![R, C]⟩ : Shape).Idx → EReal)
    (x' : (⟨2, ![R', C]⟩ : Shape).Idx → EReal) (r : Fin R) (r' : Fin R')
    (h : ∀ k : Fin C, x (ix2 r k) = x' (ix2 r' k)) : rowMax z x r = rowMax z x' r' := by
  unfold rowMax
  exact congrArg (fun f => (Finset.univ : Finset (Fin C)).fold max z f) (funext h)

/-- So is its shifted log-sum-exp. -/
theorem rowLse_congr {R R' C : ℕ} (z : EReal) (x : (⟨2, ![R, C]⟩ : Shape).Idx → EReal)
    (x' : (⟨2, ![R', C]⟩ : Shape).Idx → EReal) (r : Fin R) (r' : Fin R')
    (h : ∀ k : Fin C, x (ix2 r k) = x' (ix2 r' k)) : rowLse z x r = rowLse z x' r' := by
  unfold rowLse
  rw [rowMax_congr z x x' r r' h]
  exact congrArg Ideal.log (Finset.sum_congr rfl fun k _ => by rw [h k])

end Cert.RowStats

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.BlockStats.lean ====
/-
  What the kernel's body computes from one block of 32 rows, entry by entry.

  The body loads a block `v` of 32 rows and 50257 columns and stores two columns of 32 entries.  The first column
  holds, in row `p`, the largest entry of row `p` of the block (a maximum along the columns, started from the value
  the word `0xFF800000` denotes, then cast from a vector of 32 to a 32 by 1 column).  The second holds the logarithm
  of the sum over the columns `k` of `exp (v p k - that maximum)`: the maximum column is repeated along the columns,
  subtracted, exponentiated, summed along the columns (a sum over the extended reals, in whatever order), cast to a
  column, and the logarithm taken.  In the words of the row statistics these are `rowMax` and `rowLse` of the block.
-/
import proofs.«134838_j49658411877125_2_alg».proof.Proof.Gen.KernelIdeal.Skeleton
import proofs.«134838_j49658411877125_2_alg».proof.Proof.RowStats
import proofs.«134838_j49658411877125_2_alg».proof.Proof.LibColumnLayout
import proofs.«134838_j49658411877125_2_alg».proof.Proof.LibReduceLayout
import proofs.«134838_j49658411877125_2_alg».proof.Proof.LibMaxLayout

noncomputable section

namespace Cert.KernelIdeal.BlockStats

open Idealize.ShloMosaic Idealize.ShloMosaic.ValueIdx Cert.KernelIdeal Cert.KernelIdeal.Gen Cert.RowStats

/-- The first stored column, at row `p`: the largest entry of the block's row `p`. -/
theorem maxColumn_apply (v : FVec Ideal S32x50257 .f32) (p : Fin 32) (u : Fin 1) :
    k0_pay1 (F := Ideal) v (ix2 p u) = rowMax (Ideal.ofBits .f32 0xFF800000#32) v p := by
  unfold k0_pay1 rowMax
  refine (Cert.Lib.ColumnLayout.shapeCast_a_a1_apply _ _ p u).trans ?_
  exact Cert.Lib.MaxLayout.max_axis1_apply v _ _ _ _ p

/-- The second stored value, written out: the logarithm of the column of row sums of `exp (v - max column)`. -/
theorem lsePayload_eq (v : FVec Ideal S32x50257 .f32) :
    k0_pay2 (F := Ideal) v
      = log (shapeCast S32x1 (multiReduction .add [1] S32
          (exp (subf v (broadcastTo S32x50257 (k0_pay1 (F := Ideal) v) broadcasts_S32x1_S32x50257)))
          0x00000000#32 reduces_S32x50257_S32 (.inl rfl) rfl) shapeCasts_S32_S32x1) := rfl

/-- A logarithm and an exponential of an array, read at an index, are those of the entry. -/
theorem log_apply {s : Shape} (x : FVec Ideal s .f32) (i : s.Idx) : log x i = Ideal.log (x i) := rfl
theorem exp_apply {s : Shape} (x : FVec Ideal s .f32) (i : s.Idx) : exp x i = Ideal.exp (x i) := rfl

/-- The second stored column, at row `p`: the shifted log-sum-exp of the block's row `p`. -/
theorem lseColumn_apply (v : FVec Ideal S32x50257 .f32) (p : Fin 32) (u : Fin 1) :
    k0_pay2 (F := Ideal) v (ix2 p u) = rowLse (Ideal.ofBits .f32 0xFF800000#32) v p := by
  rw [lsePayload_eq]
  unfold rowLse
  refine (log_apply _ (ix2 p u)).trans (congrArg Ideal.log ?_)
  refine (Cert.Lib.ColumnLayout.shapeCast_a_a1_apply _ _ p u).trans ?_
  refine (Cert.Lib.ReduceLayout.sum_axis1_apply _ _ _ _ _ p).trans ?_
  refine Finset.sum_congr rfl fun k _ => ?_
  refine (exp_apply _ (ix2 p k)).trans (congrArg Ideal.exp ?_)
  refine (subf_apply v _ (ix2 p k)).trans (congrArg (fun y => v (ix2 p k) - y) ?_)
  refine (Cert.Lib.ColumnLayout.broadcastTo_a1_ab_apply _ _ p k).trans ?_
  exact maxColumn_apply v p 0

end Cert.KernelIdeal.BlockStats

end
-- ==== Proof.RowArrays.lean ====
/-
  What the kernel's two result arrays hold after the run, as functions of the score matrix.

  The grid has 128 points; point `t` loads rows `32 t … 32 t + 31` of the `[4096, 50257]` score matrix (all columns)
  and writes back rows `32 t … 32 t + 31` of two `[4096, 1]` columns.  By the block statistics the written rows are the
  row maxima and the shifted log-sum-exps of the loaded rows, and those depend on each row alone, so every written block
  is a block of ONE whole-array function of the score matrix: `maxArray x` (entry `(i, 0)` is the largest entry of row
  `i`) and `lseArray x` (entry `(i, 0)` is the shifted log-sum-exp of row `i`).  Row `i` is written by point `i / 32`,
  so the 128 blocks cover each column, and the arrays end holding exactly these functions.
-/
import proofs.«134838_j49658411877125_2_alg».proof.Proof.Gen.KernelIdeal.Frame
import proofs.«134838_j49658411877125_2_alg».proof.Proof.BlockStats
import Idealize.ShloMosaic.Lib.Pipeline.Value

set_option maxRecDepth 16384

noncomputable section

namespace Cert.KernelIdeal.RowArrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RowStats Cert.KernelIdeal.BlockStats

variable (m : (ℓ : Loc nD τ sig) → Buf (Elt Ideal) ℓ)

/-- The value the maximum starts from: what the word `0xFF800000` denotes. -/
abbrev negInf : EReal := Ideal.ofBits .f32 0xFF800000#32

/-- The column of row maxima of a score matrix. -/
def maxArray (x : S4096x50257.Idx → EReal) : S4096x1.Idx → EReal := fun i => rowMax negInf x (i 0)

/-- The column of shifted log-sum-exps of a score matrix. -/
def lseArray (x : S4096x50257.Idx → EReal) : S4096x1.Idx → EReal := fun i => rowLse negInf x (i 0)

theorem zeroOffset : (![0, 0] : Fin 2 → Nat) = fun _ => 0 := funext fun a => by fin_cases a <;> rfl

/-- The three windows' block indices at a grid point, decided over the 128 points: all three move together down the
    rows, none moves along the columns, and the row-block index stays below 128. -/
theorem blockIndex_facts : ∀ t : Fin cfg0.N, win0_0.index t (0 : Fin 2) = win0_1.index t (0 : Fin 2)
    ∧ win0_0.index t (1 : Fin 2) = 0
    ∧ win0_2.index t (0 : Fin 2) = win0_1.index t (0 : Fin 2)
    ∧ win0_1.index t (1 : Fin 2) = 0 ∧ win0_2.index t (1 : Fin 2) = 0
    ∧ win0_1.index t (0 : Fin 2) ≤ 127 :=
  (by decide +kernel : ∀ t : Fin grid0.N, _)

/-- Every row-block is some point's, for both result windows. -/
theorem blockIndex_onto : ∀ q : Fin 128, ∃ t : Fin cfg0.N, win0_1.index t = ![q.val, 0] ∧ win0_2.index t = ![q.val, 0] :=
  (by decide +kernel : ∀ q : Fin 128, ∃ t : Fin grid0.N, win0_1.index t = ![q.val, 0] ∧ win0_2.index t = ![q.val, 0])

/-- The rows of a block are rows of the matrix: if the block `blk` holds rows `32 q …` of `x`, then its maximum column
    at `j` is the matrix's maximum column at the index `i` in the same row. -/
theorem maxColumn_of_rows (x : S4096x50257.Idx → EReal) (blk : FVec Ideal S32x50257 .f32) (q : ℕ) (hq : q * 32 + 32 ≤ 4096)
    (hblk : ∀ (p : Fin 32) (k : Fin 50257), blk (ix2 p k) = x (ix2 (⟨q * 32 + p.val, by omega⟩ : Fin 4096) k))
    (j : S32x1.Idx) (i : S4096x1.Idx) (hi : (i 0).val = q * 32 + (j 0).val) :
    k0_pay1 (F := Ideal) blk j = maxArray x i := by
  obtain ⟨p, u, rfl⟩ : ∃ (p : Fin 32) (u : Fin 1), j = ix2 p u := ⟨j 0, j 1, eq_ix2 j⟩
  rw [maxColumn_apply]
  unfold maxArray
  refine rowMax_congr negInf blk x p (i 0) fun k => (hblk p k).trans (congrArg (fun r => x (ix2 r k)) (Fin.ext hi.symm))

/-- Likewise for the log-sum-exp column. -/
theorem lseColumn_of_rows (x : S4096x50257.Idx → EReal) (blk : FVec Ideal S32x50257 .f32) (q : ℕ) (hq : q * 32 + 32 ≤ 4096)
    (hblk : ∀ (p : Fin 32) (k : Fin 50257), blk (ix2 p k) = x (ix2 (⟨q * 32 + p.val, by omega⟩ : Fin 4096) k))
    (j : S32x1.Idx) (i : S4096x1.Idx) (hi : (i 0).val = q * 32 + (j 0).val) :
    k0_pay2 (F := Ideal) blk j = lseArray x i := by
  obtain ⟨p, u, rfl⟩ : ∃ (p : Fin 32) (u : Fin 1), j = ix2 p u := ⟨j 0, j 1, eq_ix2 j⟩
  rw [lseColumn_apply]
  unfold lseArray
  refine rowLse_congr negInf blk x p (i 0) fun k => (hblk p k).trans (congrArg (fun r => x (ix2 r k)) (Fin.ext hi.symm))

/-- The loaded block at point `t` holds rows `32 · (row-block of t) …` of the score matrix as the region finds it. -/
theorem loaded_rows (c : Dev nD) (t : Fin cfg0.N) (h : win0_1.index t (0 : Fin 2) * 32 + 32 ≤ 4096) (p : Fin 32) (k : Fin 50257) :
    iblk m c 0 t (ix2 p k) = V m c main_arg0 (ix2 (⟨win0_1.index t (0 : Fin 2) * 32 + p.val, by omega⟩ : Fin 4096) k) := by
  obtain ⟨e0, e1, e2, e3, e4, e5⟩ := blockIndex_facts t
  show V m c main_arg0 (((cfg0.win 0).blk t).view.emb (ix2 p k)) = _
  refine congrArg (V m c main_arg0) (funext fun a => Fin.ext ?_)
  match a with
  | ⟨0, _⟩ => show win0_0.index t (0 : Fin 2) * 32 + 1 * p.val = win0_1.index t (0 : Fin 2) * 32 + p.val; omega
  | ⟨1, _⟩ => show win0_0.index t (1 : Fin 2) * 50257 + 1 * k.val = k.val; omega

-- the two stored values are only ever used through their entry lemmas from here on
attribute [local irreducible] k0_pay1 k0_pay2 maxArray lseArray

/-- WHAT POINT `t` WRITES BACK to the first result is block `t` of the column of row maxima. -/
theorem flushed_max (c : Dev nD) (t : Fin cfg0.N) :
    (dats m 0 c).flushed 1 t = ((cfg0.win 1).blk t).view.read (Elt Ideal) (maxArray (V m c main_arg0)) := by
  show (cfg0.win 1).cut (grid0.coords t) ((dats m 0 c).after 1 t) = _
  rw [after0_1]
  unfold out0_1
  rw [View.canon_unit_zero zeroOffset]
  simp only [View.ld_unit_zero (S := S32x50257) zeroOffset]
  obtain ⟨e0, e1, e2, e3, e4, e5⟩ := blockIndex_facts t
  funext j
  rw [View.read_apply]
  refine (maxColumn_of_rows (V m c main_arg0) (iblk m c 0 t) (win0_1.index t (0 : Fin 2)) (by omega)
    (fun p k => loaded_rows m c t (by omega) p k) ((cfg0.win 1).xinj (grid0.coords t) j)
    (((cfg0.win 1).blk t).view.emb j) ?_).trans (cast_eq _ _).symm
  show win0_1.index t (0 : Fin 2) * 32 + 1 * (j 0).val = win0_1.index t (0 : Fin 2) * 32 + (j 0).val
  omega

/-- And to the second result, block `t` of the column of shifted log-sum-exps. -/
theorem flushed_lse (c : Dev nD) (t : Fin cfg0.N) :
    (dats m 0 c).flushed 2 t = ((cfg0.win 2).blk t).view.read (Elt Ideal) (lseArray (V m c main_arg0)) := by
  show (cfg0.win 2).cut (grid0.coords t) ((dats m 0 c).after 2 t) = _
  rw [after0_2]
  unfold out0_2
  rw [View.canon_unit_zero zeroOffset]
  simp only [View.ld_unit_zero (S := S32x50257) zeroOffset]
  obtain ⟨e0, e1, e2, e3, e4, e5⟩ := blockIndex_facts t
  funext j
  rw [View.read_apply]
  refine (lseColumn_of_rows (V m c main_arg0) (iblk m c 0 t) (win0_1.index t (0 : Fin 2)) (by omega)
    (fun p k => loaded_rows m c t (by omega) p k) ((cfg0.win 2).xinj (grid0.coords t) j)
    (((cfg0.win 2).blk t).view.emb j) ?_).trans (cast_eq _ _).symm
  show win0_2.index t (0 : Fin 2) * 32 + 1 * (j 0).val = win0_1.index t (0 : Fin 2) * 32 + (j 0).val
  omega

/-- An index of a result column is in point `t`'s block iff each coordinate is in the block's range on its axis. -/
theorem mem_block_max (t : Fin cfg0.N) (i : S4096x1.Idx) :
    i ∈ ((cfg0.win 1).blk t).view.set ↔ ∀ a : Fin 2, win0_1.index t a * S32x1.size a ≤ (i a).val ∧ (i a).val < win0_1.index t a * S32x1.size a + S32x1.size a := by
  show i ∈ ((View.whole main_v0_0).slice (win0_1.rect t)).set ↔ _
  rw [View.set_slice_whole, Rect.mem_set_unit]
  exact Iff.rfl

theorem mem_block_lse (t : Fin cfg0.N) (i : S4096x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0_1).slice (win0_2.rect t)).set ↔ _
  rw [View.set_slice_whole, Rect.mem_set_unit]
  exact Iff.rfl

/-- Row `i` of the first result is written by the point whose row-block is `i / 32`. -/
theorem cover_max (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht, -⟩ := blockIndex_onto ⟨(i 0).val / 32, by omega⟩
  have q0 : win0_1.index t (0 : Fin 2) = (i 0).val / 32 := congrFun ht 0
  have q1 : win0_1.index t (1 : Fin 2) = 0 := congrFun ht 1
  refine ⟨t, flush0_1 t, ?_⟩
  rw [mem_block_max]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 1 ≤ (i 1).val ∧ (i 1).val < win0_1.index t (1 : Fin 2) * 1 + 1; omega

theorem cover_lse (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, -, ht⟩ := blockIndex_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_block_lse]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- THE FIRST RESULT ARRAY after the run: the column of row maxima of the score matrix. -/
theorem final_max (c : Dev nD) : (dats m 0 c).arrAt 1 cfg0.N = maxArray (V m c main_arg0) :=
  (dats m 0 c).arrAt_eq_of_cover 1 (maxArray (V m c main_arg0)) (fun t _ => flushed_max m c t) cover_max

/-- THE SECOND RESULT ARRAY after the run: the column of shifted log-sum-exps of the score matrix. -/
theorem final_lse (c : Dev nD) : (dats m 0 c).arrAt 2 cfg0.N = lseArray (V m c main_arg0) :=
  (dats m 0 c).arrAt_eq_of_cover 2 (lseArray (V m c main_arg0)) (fun t _ => flushed_lse m c t) cover_lse

end Cert.KernelIdeal.RowArrays

end
-- ==== Proof.LossShape.lean ====
/-
  The parts of the loss that both programs spell alike, named once, over the literal shapes: 4096 rows of 50257 scores,
  one target column per row.

    * `startIdx A` is the `[4096, 2]` array of (row, column) pairs the entries `x[i, t_i]` are gathered at.  Its first
      column is the row counter `0, 1, …, 4095`, wrapped as an index would be (`i + 4096` if `i` were negative, which a
      counter never is); its second column is the target `A i`, wrapped (`A i + 50257` when negative).
    * `targetCol A r` is the column actually read in row `r`: the second component, signed and clamped into the axis.
    * `logProb z x A` is, in row `r`, the log-softmax of row `r` at that column, written with the row statistics:
      `(x r c - rowMax z x r) - rowLse z x r`.
    * `meanLoss g` is the mean over the 4096 rows of `(2 - 2 · exp g) · (- g)`.

  The one computed fact: the first component of pair `r` is `r` itself, and clamping it into `[0, 4095]` leaves it.
-/
import Idealize.ShloMosaic.Lib.Pipeline.Value
import Idealize.ShloMosaic.Lib.ValueIdx
import proofs.«134838_j49658411877125_2_alg».proof.Proof.RowStats

noncomputable section

namespace Cert.LossShape

open Idealize.ShloMosaic Idealize.ShloMosaic.ValueIdx Cert.RowStats

abbrev Scores : Shape := ⟨2, ![4096, 50257]⟩
abbrev Rows : Shape := ⟨1, ![4096]⟩
abbrev RowsCol : Shape := ⟨2, ![4096, 1]⟩
abbrev Pairs : Shape := ⟨2, ![4096, 2]⟩
abbrev Scalar0 : Shape := ⟨0, ![]⟩

/-- The (row, column) pairs the gather starts at, from the targets `A`. -/
def startIdx (hb : Scalar0.BroadcastsInDim Rows (![] : Fin 0 → Fin Rows.rank))
    (hb1 : Rows.BroadcastsInDim RowsCol (![0] : Fin 1 → Fin RowsCol.rank))
    (hc : Shape.Concatenates [RowsCol, RowsCol] Pairs 1) (A : IVec Rows 32) : IVec Pairs 32 :=
  concatenate Pairs 1
    [⟨RowsCol, broadcastInDim RowsCol ![0] hb1
        (select (cmpi .slt (iotaInDim Rows 32 0) (broadcastInDim Rows ![] hb (constantI Scalar0 32 0#32)))
          (addi (iotaInDim Rows 32 0) (broadcastInDim Rows ![] hb (constantI Scalar0 32 4096#32))) (iotaInDim Rows 32 0))⟩,
     ⟨RowsCol, broadcastInDim RowsCol ![0] hb1
        (select (cmpi .slt A (broadcastInDim Rows ![] hb (constantI Scalar0 32 0#32)))
          (addi A (broadcastInDim Rows ![] hb (constantI Scalar0 32 50257#32))) A)⟩] hc

/-- A row counter below 4096 is not negative as a signed 32-bit word. -/
theorem counter_not_neg (r : ℕ) (hr : r < 4096) : IntOp.cmpi .slt (BitVec.ofNat 32 r) 0#32 = 0#1 := by
  have h : (BitVec.ofNat 32 r).toInt = (r : ℤ) := by
    rw [BitVec.toInt_eq_toNat_cond, BitVec.toNat_ofNat, Nat.mod_eq_of_lt (by omega), if_pos (by omega)]
  simp only [IntOp.cmpi, BitVec.slt, h, BitVec.toInt_zero]
  rw [decide_eq_false (by omega)]
  rfl

/-- Read as a signed integer it is itself, and clamping it into `[0, 4095]` leaves it. -/
theorem counter_clamp (r : ℕ) (hr : r < 4096) : min (BitVec.ofNat 32 r).toInt.toNat (4096 - 1) = r := by
  have h : (BitVec.ofNat 32 r).toInt = (r : ℤ) := by
    rw [BitVec.toInt_eq_toNat_cond, BitVec.toNat_ofNat, Nat.mod_eq_of_lt (by omega), if_pos (by omega)]
  rw [h, Int.toNat_natCast]
  omega

/-- The first component of pair `r` is the counter `r`. -/
theorem startIdx_row (hb : Scalar0.BroadcastsInDim Rows (![] : Fin 0 → Fin Rows.rank))
    (hb1 : Rows.BroadcastsInDim RowsCol (![0] : Fin 1 → Fin RowsCol.rank))
    (hc : Shape.Concatenates [RowsCol, RowsCol] Pairs 1) (A : IVec Rows 32) (r : Fin 4096) :
    startIdx hb hb1 hc A (ix2 r (0 : Fin 2)) = BitVec.ofNat 32 r.val := by
  unfold startIdx
  refine (concatenate_pair_apply_left (t := Pairs) (s₁ := RowsCol) (s₂ := RowsCol) (1 : Fin 2) _ _ hc (ix2 r (0 : Fin 2)) rfl
    (ix2 r (0 : Fin 1)) (fun b => ?_)).trans ?_
  · match b with
    | ⟨0, _⟩ => rfl
    | ⟨1, _⟩ => rfl
  refine (broadcastInDim_apply ![0] hb1 _ (ix2 r (0 : Fin 1)) (ix1 r) (fun a => ?_)).trans ?_
  · match a with
    | ⟨0, _⟩ => show r.val = if (4096 : ℕ) = 1 then 0 else r.val; rw [if_neg (by decide)]
  show Scalar.select (IntOp.cmpi .slt (BitVec.ofNat 32 r.val) 0#32) _ (BitVec.ofNat 32 r.val) = _
  rw [counter_not_neg r.val r.isLt, select_zero]

/-- The column read in row `r`: the second component of pair `r`, signed and clamped into `[0, 50256]`. -/
def targetCol (hb : Scalar0.BroadcastsInDim Rows (![] : Fin 0 → Fin Rows.rank))
    (hb1 : Rows.BroadcastsInDim RowsCol (![0] : Fin 1 → Fin RowsCol.rank))
    (hc : Shape.Concatenates [RowsCol, RowsCol] Pairs 1) (A : IVec Rows 32) (r : Fin 4096) : Fin 50257 :=
  ⟨min (startIdx hb hb1 hc A (ix2 r (1 : Fin 2))).toInt.toNat (50257 - 1), by omega⟩

/-- The log-probability of each row's target: the log-softmax of the row at the target's column. -/
def logProb (hb : Scalar0.BroadcastsInDim Rows (![] : Fin 0 → Fin Rows.rank))
    (hb1 : Rows.BroadcastsInDim RowsCol (![0] : Fin 1 → Fin RowsCol.rank))
    (hc : Shape.Concatenates [RowsCol, RowsCol] Pairs 1) (z : EReal) (x : FVec Ideal Scores .f32) (A : IVec Rows 32) :
    FVec Ideal Rows .f32 :=
  fun i => (x (ix2 (i 0) (targetCol hb hb1 hc A (i 0))) - rowMax z x (i 0)) - rowLse z x (i 0)

/-- The mean over the rows of `(2 - 2 · exp g) · (- g)`. -/
def meanLoss (hb : Scalar0.BroadcastsInDim Rows (![] : Fin 0 → Fin Rows.rank)) (hr : Rows.ReducesTo [0] Scalar0)
    (h0 : 0 < Scalar0.numel) (g : FVec Ideal Rows .f32) : FVec Ideal Scalar0 .f32 :=
  Host.divf (F := Ideal)
    (Host.reduceAdd (F := Ideal)
      (mulf (subf (broadcastInDim Rows ![] hb (constant (F := Ideal) Scalar0 .f32 0x40000000#32))
              (mulf (broadcastInDim Rows ![] hb (constant (F := Ideal) Scalar0 .f32 0x40000000#32)) (Host.exp (F := Ideal) g)))
        (Host.negf (F := Ideal) g))
      (constant (F := Ideal) Scalar0 .f32 0x00000000#32) hr h0)
    (constant (F := Ideal) Scalar0 .f32 0x45800000#32)

end Cert.LossShape

end
-- ==== Proof.LibGatherPair.lean ====
/-
  A `stablehlo.gather` of single entries of a matrix, read at an index: what `x[rows, cols]` of a matrix `x : [N, M]`
  at two integer vectors of length `R` lowers to.  The start indices are the `[R, 2]` array whose row `r` is the pair
  (row, column); both operand axes are collapsed, the slice is one entry, and the result is a vector of length `R`.
  Result entry `r` is `x` at that pair, each component read as a signed integer and clamped into its axis
  (`[0, N - 1]` and `[0, M - 1]`), as StableHLO's gather clamps every start index.
  General in the extents and in the index width.
-/
import Idealize.ShloMosaic.Lib.ValueIdx

namespace Cert.Lib.GatherPair

open Idealize.ShloMosaic Idealize.ShloMosaic.ValueIdx

variable {α : Type}

/-- The dimension numbers of that gather, for an operand `[N, M]`, start indices `[R, 2]` and a result `[R]`; their
    conditions `wf` are decided on a program's literal shapes. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Component `c` of result entry `r`'s start index sits at `(r, c)` of the start indices. -/
theorem siIdx_eq {N M R : Nat}
    (wf : GatherDims.WF ⟨2, ![N, M]⟩ ⟨2, ![R, 2]⟩ ⟨1, ![R]⟩ [] [0, 1] [] [0, 1] [] 1 ![1, 1]) (r : Fin R)
    (c : Fin (pairDims N M R wf).startIndexMap.length) :
    (pairDims N M R wf).siIdx (ix1 r) c = ix2 r (c : Fin 2) := by
  funext b
  refine Fin.ext ?_
  match b with
  | ⟨0, _⟩ => rfl
  | ⟨1, _⟩ => rfl

/-- The operand row read for result entry `r`: the first start component, signed and clamped into `[0, N - 1]`. -/
theorem operandIdx_zero {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pairDims N M R wf).operandIdx (ix1 r) idx (0 : Fin 2)).val = min (idx (ix2 r (0 : Fin 2))).toInt.toNat (N - 1) := by
  show (pairDims N M R wf).start (ix1 r) idx (0 : Fin 2) + (pairDims N M R wf).batchCoord (ix1 r) (0 : Fin 2)
      + (pairDims N M R wf).offCoord (ix1 r) (0 : Fin 2) = _
  rw [GatherDims.batchCoord_eq_zero _ _ _ List.not_mem_nil,
    GatherDims.offCoord_eq_zero _ _ _ (fun h => ((GatherDims.mem_sKept _ _).mp h).1 List.mem_cons_self),
    Nat.add_zero]
  unfold GatherDims.start
  rw [dif_pos (show (0 : Fin 2) ∈ (pairDims N M R wf).startIndexMap from List.mem_cons_self), siIdx_eq]
  rfl

/-- The operand column read for result entry `r`: the second start component, signed and clamped into `[0, M - 1]`. -/
theorem operandIdx_one {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pairDims N M R wf).operandIdx (ix1 r) idx (1 : Fin 2)).val = min (idx (ix2 r (1 : Fin 2))).toInt.toNat (M - 1) := by
  show (pairDims N M R wf).start (ix1 r) idx (1 : Fin 2) + (pairDims N M R wf).batchCoord (ix1 r) (1 : Fin 2)
      + (pairDims N M R wf).offCoord (ix1 r) (1 : Fin 2) = _
  rw [GatherDims.batchCoord_eq_zero _ _ _ List.not_mem_nil,
    GatherDims.offCoord_eq_zero _ _ _ (fun h => ((GatherDims.mem_sKept _ _).mp h).1 (List.mem_cons_of_mem _ List.mem_cons_self)),
    Nat.add_zero]
  unfold GatherDims.start
  rw [dif_pos (show (1 : Fin 2) ∈ (pairDims N M R wf).startIndexMap from List.mem_cons_of_mem _ List.mem_cons_self), siIdx_eq]
  rfl

/-- THE GATHER READ AT `r`: the operand at the start pair `(idx[r, 0], idx[r, 1])`, each component read signed and
    clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩
              ⟨min (idx (ix2 r (1 : Fin 2))).toInt.toNat (M - 1), by omega⟩) := by
  unfold Host.gather
  refine congrArg x (funext fun a => Fin.ext ?_)
  match a with
  | ⟨0, _⟩ => exact operandIdx_zero wf idx r
  | ⟨1, _⟩ => exact operandIdx_one wf idx r

end Cert.Lib.GatherPair
-- ==== Proof.TargetEntry.lean ====
/-
  The entry each row's target selects.  The gather of single entries at the pairs `startIdx A` reads, in row `r`, the
  matrix at `(r, targetCol A r)`: the pair's first component is the row counter `r`, which clamping leaves alone, and
  its second component, clamped into the columns, is by definition the target column.
-/
import proofs.«134838_j49658411877125_2_alg».proof.Proof.LossShape
import proofs.«134838_j49658411877125_2_alg».proof.Proof.LibGatherPair

noncomputable section

namespace Cert.LossShape

open Idealize.ShloMosaic Idealize.ShloMosaic.ValueIdx Cert.Lib.GatherPair

/-- The gather at the start pairs, read at row `r`. -/
theorem gather_startIdx_apply {α : Type}
    (wf : GatherDims.WF Scores Pairs Rows [] [0, 1] [] [0, 1] [] 1 ![1, 1])
    (hb : Scalar0.BroadcastsInDim Rows (![] : Fin 0 → Fin Rows.rank))
    (hb1 : Rows.BroadcastsInDim RowsCol (![0] : Fin 1 → Fin RowsCol.rank))
    (hc : Shape.Concatenates [RowsCol, RowsCol] Pairs 1) (x : Scores.Idx → α) (A : IVec Rows 32) (r : Fin 4096) :
    Host.gather (pairDims 4096 50257 4096 wf) x (startIdx hb hb1 hc A) (ix1 r) = x (ix2 r (targetCol hb hb1 hc A r)) := by
  rw [gather_pair_apply (by decide) (by decide)]
  refine congrArg (fun q : Fin 4096 => x (ix2 q (targetCol hb hb1 hc A r))) (Fin.ext ?_)
  show min (startIdx hb hb1 hc A (ix2 r (0 : Fin 2))).toInt.toNat (4096 - 1) = r.val
  rw [startIdx_row]
  exact counter_clamp r.val r.isLt

end Cert.LossShape

end
-- ==== Proof.LibColumnVector.lean ====
/-
  A column taken back to a vector, read at an index given by its coordinate: an `[a, 1]` array cast to `[a]` reads, at
  `i`, the column's entry in row `i` — both indices have row-major position `i`.  General in the extent.
-/
import Idealize.ShloMosaic.Lib.ValueLayout

namespace Cert.Lib.ColumnVector

open Idealize.ShloMosaic Idealize.ShloMosaic.ValueIdx

variable {α : Type}

/-- An `[a, 1]` column cast to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    rw [Nat.mul_one, Nat.add_zero])

end Cert.Lib.ColumnVector
-- ==== Proof.KernelValue.lean ====
/-
  What the kernel's program returns, as a function of its arguments.

  After the region the program gathers `x[r, t_r]` at the start pairs, subtracts from it the first result column (cast
  back to a vector) and then the second, and takes the mean loss.  The two columns are the row maxima and the shifted
  log-sum-exps of the score matrix, so row `r` of the difference is `(x r c - rowMax r) - rowLse r` with `c` the target's
  column: the log-probability `logProb`.  The lines after the region read four buffers — the two arguments, which the
  region leaves as launched, and the two result columns — and the rest is the run of the program re-posted at that value.
-/
import proofs.«134838_j49658411877125_2_alg».proof.Proof.Gen.KernelIdeal.Frame
import proofs.«134838_j49658411877125_2_alg».proof.Proof.RowArrays
import proofs.«134838_j49658411877125_2_alg».proof.Proof.TargetEntry
import proofs.«134838_j49658411877125_2_alg».proof.Proof.LibColumnVector
import Idealize.ShloMosaic.Lib.StableHlo.Run

set_option maxRecDepth 16384

noncomputable section

namespace Cert.KernelIdeal.LossValue

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.RowStats Cert.LossShape Cert.KernelIdeal.RowArrays

/-- The lines after the region as one function of the four buffers they read: the scores, the targets and the two
    result columns. -/
def tailOf (x : FVec Ideal S4096x50257 .f32) (A : IVec S4096 32) (mx lx : FVec Ideal S4096x1 .f32) : FVec Ideal S_ .f32 :=
  meanLoss bcast_S_S4096 reducesTo_S4096_S_d0 h_S_
    (subf (subf (Host.gather gather_S4096x50257_S4096x2_S4096_n_01_n_n_01_1_11 x
              (startIdx bcast_S_S4096 bcast_S4096_S4096x1_0 concatenates_S4096x1_S4096x1_S4096x2_d1 A))
            (shapeCast S4096 mx shapeCasts_S4096x1_S4096))
      (shapeCast S4096 lx shapeCasts_S4096x1_S4096))

/-- The 36 lines after the region, run from any buffer contents `W`, leave the result at `tailOf` of the four buffers. -/
theorem after_tail (W : Valuation τ sig (Elt Ideal)) :
    StableHlo.after (hostOps1 (F := Ideal)) W (Proc.devRef .tc main_v28)
      = tailOf (W (Proc.devRef .tc main_arg0)) (W (Proc.devRef .tc main_arg1)) (W (Proc.devRef .tc main_v0_0))
          (W (Proc.devRef .tc main_v0_1)) := by
  after_results_simp
  rfl

/-- With the two columns at the row statistics, the difference the tail averages is the log-probability of each
    row's target. -/
theorem rows_eq (x : FVec Ideal S4096x50257 .f32) (A : IVec S4096 32) :
    subf (subf (Host.gather gather_S4096x50257_S4096x2_S4096_n_01_n_n_01_1_11 x
              (startIdx bcast_S_S4096 bcast_S4096_S4096x1_0 concatenates_S4096x1_S4096x1_S4096x2_d1 A))
            (shapeCast S4096 (maxArray x) shapeCasts_S4096x1_S4096))
      (shapeCast S4096 (lseArray x) shapeCasts_S4096x1_S4096)
      = logProb bcast_S_S4096 bcast_S4096_S4096x1_0 concatenates_S4096x1_S4096x1_S4096x2_d1 negInf x A := by
  funext i
  obtain ⟨r, rfl⟩ : ∃ r : Fin 4096, i = ix1 r := ⟨i 0, eq_ix1 i⟩
  show (Host.gather (Cert.Lib.GatherPair.pairDims 4096 50257 4096 gather_S4096x50257_S4096x2_S4096_n_01_n_n_01_1_11_wf) x
          (startIdx bcast_S_S4096 bcast_S4096_S4096x1_0 concatenates_S4096x1_S4096x1_S4096x2_d1 A) (ix1 r)
        - shapeCast S4096 (maxArray x) shapeCasts_S4096x1_S4096 (ix1 r))
      - shapeCast S4096 (lseArray x) shapeCasts_S4096x1_S4096 (ix1 r) = _
  rw [gather_startIdx_apply, Cert.Lib.ColumnVector.shapeCast_a1_a_apply, Cert.Lib.ColumnVector.shapeCast_a1_a_apply]
  rfl

variable (m : (ℓ : Loc nD τ sig) → Buf (Elt Ideal) ℓ) (ρ : Dev nD → PrngReg)

/-- The program's value: the mean loss of the log-probabilities of the launch arguments. -/
abbrev value (c : Dev nD) : FVec Ideal S_ .f32 :=
  meanLoss bcast_S_S4096 reducesTo_S4096_S_d0 h_S_
    (logProb bcast_S_S4096 bcast_S4096_S4096x1_0 concatenates_S4096x1_S4096x1_S4096x2_d1 negInf
      (m ((c : Thread nD τ).loc main_arg0)) (m ((c : Thread nD τ).loc main_arg1)))

/-- What the lines after the region leave at the result, from the region's exit contents. -/
theorem tail_value (c : Dev nD) :
    Pipeline.afterTail₀ cfgs (dats m) 0 (V0 m) [hostOps1] c main_v28 = value m c := by
  unfold Pipeline.afterTail₀
  show StableHlo.after hostOps1 (Pipeline.withArrays spec0 c (V0 m c) fun w => (dats m 0 c).arrAt w cfg0.N)
      (Proc.devRef .tc main_v28) = _
  rw [after_tail]
  have h0 : Pipeline.withArrays spec0 c (V0 m c) (fun w => (dats m 0 c).arrAt w cfg0.N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have h1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1
      (by exact (by decide : ∀ w, Pipeline.arrRef spec0 w ≠ main_arg1))).trans (V_main_arg1 m c)
  have h2 : Pipeline.withArrays spec0 c (V0 m c) (fun w => (dats m 0 c).arrAt w cfg0.N) (Proc.devRef .tc main_v0_0)
      = maxArray (m ((c : Thread nD τ).loc main_arg0)) :=
    (Pipeline.withArrays_arr spec0 launch0.win.arr_inj c _ _ 1).trans
      ((final_max m c).trans (congrArg maxArray (V_main_arg0 m c)))
  have h3 : Pipeline.withArrays spec0 c (V0 m c) (fun w => (dats m 0 c).arrAt w cfg0.N) (Proc.devRef .tc main_v0_1)
      = lseArray (m ((c : Thread nD τ).loc main_arg0)) :=
    (Pipeline.withArrays_arr spec0 launch0.win.arr_inj c _ _ 2).trans
      ((final_lse m c).trans (congrArg lseArray (V_main_arg0 m c)))
  rw [h0, h1, h2, h3]
  unfold tailOf
  rw [rows_eq]

/-- THE RUN, READ: every weakly fair execution of the kernel's program terminates with the result at `value` and the
    arguments as launched. -/
theorem run : θ_run defs (onTc (τ := τ) (main (F := Ideal))) ⟨m, fun _ => 0, ρ⟩ fun r => ∀ c : Dev nD,
      r.2.mem ((c.tc : Thread nD τ).loc main_v28) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v28 (Pipeline.mem_restRefs_of main_v28 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.LossValue

end
-- ==== Proof.LibTypedRef.lean ====
/-
  A typed reference carries a proof that its buffer's type is the tensor value's type, and moves contents between the
  two types along that proof.  Moving a value to the buffer's type and back gives the value again: the two moves are
  transports along an equation and its inverse.  General in the signature, the type and the values.
-/
import Idealize.ShloMosaic.Lib.StableHlo

namespace Cert.Lib.TypedRef

open Idealize.ShloMosaic Idealize.ShloMosaic.StableHlo

/-- Contents moved to the buffer's own type and back are unchanged. -/
theorem ofBuf_toBuf {sig : RefSig} {T : BufTy} {Val : EltTy → Type} (x : TRef sig T) (v : T.Contents Val) :
    x.ofBuf (x.toBuf v) = v := by
  obtain ⟨r, h, _, _⟩ := x
  subst h
  rfl

end Cert.Lib.TypedRef
-- ==== Proof.ReferenceValue.lean ====
/-
  What the reference computes, entry by entry, in the words of the row statistics.

  The reference takes the log-softmax of the whole score matrix and then gathers one entry per row.  Its log-softmax
  at `(r, k)` is `(x r k - M r) - L r`, where `M r` is the maximum with `-∞` of the row's maximum (itself a fold of `max`
  from `-∞`, so the outer maximum is absorbed: `M r = rowMax`), and `L r` is the logarithm of `0 +` the sum over the row of
  `exp (x r k - M r)` (the sum's initial value is the zero word, which denotes `0`: `L r = rowLse`).  Gathered at the
  start pairs this is the log-probability of each row's target, `logProb`, and the rest of the program is `meanLoss`.
-/
import proofs.«134838_j49658411877125_2_alg».proof.Proof.ReferenceRead
import proofs.«134838_j49658411877125_2_alg».proof.Proof.TargetEntry
import proofs.«134838_j49658411877125_2_alg».proof.Proof.LibMaxLayout

noncomputable section

namespace Cert.ReferenceIdeal.LossValue

open Idealize.ShloMosaic Idealize.ShloMosaic.ValueIdx
open Cert.ReferenceIdeal Cert.ReferenceIdeal.Gen Cert.ReferenceIdeal.ReadP Cert.RowStats Cert.LossShape

/-- The value the maxima start from: what the word `0xFF800000` denotes. -/
abbrev negInf : EReal := Ideal.ofBits .f32 0xFF800000#32

/-- The reference's row maximum is the row's maximum: the extra maximum with the starting value is absorbed. -/
theorem rowMax_apply (x0 : FVec Ideal S4096x50257 .f32) (r : Fin 4096) :
    val_main_call0_v2 (F := Ideal) x0 (ix1 r) = rowMax negInf x0 r := by
  rw [val_main_call0_v2_apply]
  have h1 : val_main_call0_v1 (F := Ideal) (ix1 r) = negInf := by
    rw [val_main_call0_v1_apply, val_main_call0_cst_0_apply]; rfl
  have h0 : val_main_call0_v0 (F := Ideal) x0 (ix1 r) = rowMax negInf x0 r := by
    unfold val_main_call0_v0 rowMax
    exact Cert.Lib.MaxLayout.hostMax_axis1_apply x0 _ _ (by decide) _ r
  rw [h1, h0]
  exact max_rowMax negInf x0 r

/-- The shifted score at `(r, k)`. -/
theorem shifted_apply (x0 : FVec Ideal S4096x50257 .f32) (r : Fin 4096) (k : Fin 50257) :
    val_main_call0_v5 (F := Ideal) x0 (ix2 r k) = x0 (ix2 r k) - rowMax negInf x0 r := by
  rw [val_main_call0_v5_apply, val_main_call0_v4_apply, val_main_call0_v3_apply,
    show idx_main_call0_v3 (idx_main_call0_v4 (ix2 r k)) = ix1 r from
      funext fun a => Fin.ext (by match a with | ⟨0, _⟩ => rfl),
    rowMax_apply]
  rfl

/-- The reference's log-sum-exp column at row `r`. -/
theorem lse_apply (x0 : FVec Ideal S4096x50257 .f32) (r : Fin 4096) (u : Fin 1) :
    val_main_call0_v9 (F := Ideal) x0 (ix2 r u) = rowLse negInf x0 r := by
  rw [val_main_call0_v9_apply, Ideal.hostUnary_log_def, val_main_call0_v8_apply, val_main_call0_v7_apply]
  unfold rowLse
  refine congrArg Ideal.log ?_
  rw [show val_main_call0_cst_1 (F := Ideal) (Shape.Idx.first h_S_) = 0 from Ideal.ofBits_zero_f32, zero_add]
  refine Finset.sum_congr rfl fun k _ => ?_
  rw [val_main_call0_v6_apply, Ideal.hostUnary_exp_def,
    show idx_main_call0_v7 (idx_main_call0_v8 (ix2 r u)) k = ix2 r k from
      funext fun a => Fin.ext (by match a with | ⟨0, _⟩ => rfl | ⟨1, _⟩ => rfl),
    shifted_apply]

/-- The reference's log-softmax at `(r, k)`. -/
theorem logSoftmax_apply (x0 : FVec Ideal S4096x50257 .f32) (r : Fin 4096) (k : Fin 50257) :
    val_main_v0 (F := Ideal) x0 (ix2 r k) = (x0 (ix2 r k) - rowMax negInf x0 r) - rowLse negInf x0 r := by
  rw [val_main_v0_apply, val_main_call0_v10_apply,
    show idx_main_call0_v10 (ix2 r k) = ix2 r (0 : Fin 1) from
      funext fun a => Fin.ext (by match a with | ⟨0, _⟩ => rfl | ⟨1, _⟩ => rfl),
    shifted_apply, lse_apply]
  rfl

/-- The gathered log-probabilities are `logProb` of the arguments. -/
theorem rows_eq (x0 : FVec Ideal S4096x50257 .f32) (x1 : IVec S4096 32) :
    val_main_v15 (F := Ideal) x0 x1
      = logProb bcast_S_S4096 bcast_S4096_S4096x1_0 concatenates_S4096x1_S4096x1_S4096x2_d1 negInf x0 x1 := by
  funext i
  obtain ⟨r, rfl⟩ : ∃ r : Fin 4096, i = ix1 r := ⟨i 0, eq_ix1 i⟩
  show Host.gather (Cert.Lib.GatherPair.pairDims 4096 50257 4096 gather_S4096x50257_S4096x2_S4096_n_01_n_n_01_1_11_wf)
      (val_main_v0 (F := Ideal) x0)
      (startIdx bcast_S_S4096 bcast_S4096_S4096x1_0 concatenates_S4096x1_S4096x1_S4096x2_d1 x1) (ix1 r) = _
  rw [gather_startIdx_apply, logSoftmax_apply]
  rfl

/-- The reference's result is the mean loss of those log-probabilities. -/
theorem result_eq (x0 : FVec Ideal S4096x50257 .f32) (x1 : IVec S4096 32) :
    val_main_v24 (F := Ideal) x0 x1
      = meanLoss bcast_S_S4096 reducesTo_S4096_S_d0 h_S_
          (logProb bcast_S_S4096 bcast_S4096_S4096x1_0 concatenates_S4096x1_S4096x1_S4096x2_d1 negInf x0 x1) := by
  rw [← rows_eq]
  rfl

end Cert.ReferenceIdeal.LossValue

end
-- ==== Proof.lean ====
/-
  The claim: a Pallas kernel for the per-row softmax statistics, followed by a gather and a weighted cross-entropy mean in
  plain array code, against a reference that takes the log-softmax of the whole matrix first — equal over the
  extended reals.

  For scores `x : [4096, 50257]` and targets `t : [4096]` both programs return the mean over the rows `r` of
  `(2 - 2 · exp g r) · (- g r)`, where `g r` is the log-probability of row `r`'s target.
    * The kernel's program computes, 32 rows at a grid point, the row maximum `M r = max_k x r k` and the shifted
      log-sum-exp `L r = log Σ_k exp (x r k - M r)`, then outside the kernel gathers `x r c` at the target's column `c`
      and forms `g r = (x r c - M r) - L r`.
    * The reference forms the whole log-softmax `(x r k - M' r) - L' r` and gathers it at the same `(r, c)`.  Its `M' r` is
      the maximum of `-∞` with the row maximum and its sum starts from `0`; neither changes the value, and a row's
      statistics depend on that row alone, so `M' = M`, `L' = L` and the two `g` coincide entry by entry.
  No law of arithmetic beyond these is needed: both sides are the same expression in `x r c`, `M r` and `L r`, and the
  sums and maxima are taken over the same sets, in whatever order.  The inputs' finiteness is not used.

  The frames of the two kernel programs are the generated frame certificates; the reference's frame is its run with the
  result dropped.  The kernel's idealization rewrote nothing, so the `preserves` conjunct is `True`.
-/
import proofs.«134838_j49658411877125_2_alg».proof.Defs
import proofs.«134838_j49658411877125_2_alg».proof.Proof.Gen.Kernel
import proofs.«134838_j49658411877125_2_alg».proof.Proof.Gen.Kernel.Skeleton
import proofs.«134838_j49658411877125_2_alg».proof.Proof.Gen.Kernel.Launch
import proofs.«134838_j49658411877125_2_alg».proof.Proof.Gen.Kernel.Points
import proofs.«134838_j49658411877125_2_alg».proof.Proof.Gen.Kernel.Frame
import proofs.«134838_j49658411877125_2_alg».proof.Proof.Gen.KernelIdeal
import proofs.«134838_j49658411877125_2_alg».proof.Proof.Gen.KernelIdeal.Skeleton
import proofs.«134838_j49658411877125_2_alg».proof.Proof.Gen.KernelIdeal.Launch
import proofs.«134838_j49658411877125_2_alg».proof.Proof.Gen.KernelIdeal.Points
import proofs.«134838_j49658411877125_2_alg».proof.Proof.Gen.KernelIdeal.Frame
import proofs.«134838_j49658411877125_2_alg».proof.Proof.Gen.ReferenceIdeal
import proofs.«134838_j49658411877125_2_alg».proof.Proof.Gen.Pre_finite_inputs
import proofs.«134838_j49658411877125_2_alg».proof.Proof.KernelValue
import proofs.«134838_j49658411877125_2_alg».proof.Proof.ReferenceValue
import Idealize.ShloMosaic.Adequacy
import Idealize.ShloMosaic.Init

noncomputable section

namespace Cert.Proof

open Idealize.ShloMosaic Idealize.SL.Sem

/-- The kernel's program, word for word, runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at the mean loss of the targets' log-probabilities, computed from arguments that agree. -/
theorem algebraic : Cert.algebraic_KernelIdeal_ReferenceIdeal := by
  intro m ρ m' ρ' _ hagree
  refine ⟨fun c => Cert.KernelIdeal.LossValue.value m c, Cert.KernelIdeal.LossValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v24_eq _ _).trans ?_
  rw [Cert.ReferenceIdeal.LossValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
